-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S512x32 : Shape := ⟨2, ![512, 32]⟩
abbrev S1 : Shape := ⟨1, ![1]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S512x32 : S_.BroadcastsInDim S512x32 (![] : Fin 0 → Fin S512x32.rank)
  reducesTo_S512x32_S_d0_1 : S512x32.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S16x512x64x64 .f32) (main_arg1 : FVec F S512x32 .f32) (main_arg2 : FVec F S1 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S16x512x64x64 : Shape := ⟨4, ![16, 512, 64, 64]⟩
abbrev S512x32 : Shape := ⟨2, ![512, 32]⟩
abbrev S1 : Shape := ⟨1, ![1]⟩
abbrev S16x512x4096 : Shape := ⟨3, ![16, 512, 4096]⟩
abbrev S1x1 : Shape := ⟨2, ![1, 1]⟩
abbrev S1x512x1024 : Shape := ⟨3, ![1, 512, 1024]⟩
abbrev S512x1024 : Shape := ⟨2, ![512, 1024]⟩
abbrev S1024x32 : Shape := ⟨2, ![1024, 32]⟩
abbrev S1024 : Shape := ⟨1, ![1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S16x512x64x64, .f32⟩
  | .hbm, ⟨1, _⟩ => ⟨S512x32, .f32⟩
  | .hbm, ⟨2, _⟩ => ⟨S1, .f32⟩
  | .hbm, ⟨3, _⟩ => ⟨S16x512x4096, .f32⟩
  | .hbm, ⟨4, _⟩ => ⟨S1x1, .f32⟩
  | .hbm, ⟨5, _⟩ => ⟨S16x512x4096, .f32⟩
  | .hbm, ⟨6, _⟩ => ⟨S16x512x64x64, .f32⟩
  | .local _ .vmem, ⟨0, _⟩ => ⟨S512x32, .f32⟩
  | .local _ .vmem, ⟨1, _⟩ => ⟨S1x1, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S512x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x512x64x64_S16x512x4096 : S16x512x64x64.ShapeCasts S16x512x4096
  shapeCasts_S1_S1x1 : S1.ShapeCasts S1x1
  inb_S512x32_S512x32_0_0 : ∀ a, (![0, 0] : Fin 2 → Nat) a + S512x32.size a ≤ S512x32.size a
  h_S512x32 : 0 < S512x32.numel
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S1024x32_S1024 : S1024x32.Reduces [1] S1024
  shapeCasts_S1024_S1024x1 : S1024.ShapeCasts S1024x1
  broadcasts_S1024x1_S1024x32 : S1024x1.Broadcasts S1024x32
  shapeCasts_S512x1024_S1x512x1024 : S512x1024.ShapeCasts S1x512x1024
  shapeCasts_S16x512x4096_S16x512x64x64 : S16x512x4096.ShapeCasts S16x512x64x64
  dot_S512x1024_S512x32_S1024x32_0_0_1_1_n_n_wf : DotDims.WF S512x1024 S512x32 S1024x32 [0] [0] [1] [1] [] []
  dot_S512x32_S1024x32_S512x1024_1_1_0_0_n_n_wf : DotDims.WF S512x32 S1024x32 S512x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S512x32.size a
  hwx0_0 : ∀ i : grid0.Coords, EltTy.bits .f32 = 32 ∨ (Rect.block (s := S512x32) S512x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x512x4096.size a
  hwx0_2 : ∀ i : grid0.Coords, EltTy.bits .f32 = 32 ∨ (Rect.block (s := S16x512x4096) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x512x4096.size a
  hwx0_3 : ∀ i : grid0.Coords, EltTy.bits .f32 = 32 ∨ (Rect.block (s := S16x512x4096) S1x512x1024.size (cc0_transform_3 i) (hinb0_3 i)).WholeWords (EltTy.packing .f32)

variable [Facts₀]

def dot_S512x1024_S512x32_S1024x32_0_0_1_1_n_n : DotDims S512x1024 S512x32 S1024x32 where
  lhsContracting := [0]
  rhsContracting := [0]
  lhsNonContracting := [1]
  rhsNonContracting := [1]
  lhsBatch := []
  rhsBatch := []
  wf := dot_S512x1024_S512x32_S1024x32_0_0_1_1_n_n_wf
def dot_S512x32_S1024x32_S512x1024_1_1_0_0_n_n : DotDims S512x32 S1024x32 S512x1024 where
  lhsContracting := [1]
  rhsContracting := [1]
  lhsNonContracting := [0]
  rhsNonContracting := [0]
  lhsBatch := []
  rhsBatch := []
  wf := dot_S512x32_S1024x32_S512x1024_1_1_0_0_n_n_wf

abbrev win0_0 : Pipeline.Window sig grid0 :=
  Pipeline.Window.ofSpec (Memref.whole main_arg1) S512x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S512x32 : Shape := ⟨2, ![512, 32]⟩
abbrev S1 : Shape := ⟨1, ![1]⟩
abbrev S16x512x4096 : Shape := ⟨3, ![16, 512, 4096]⟩
abbrev S16x4096x512 : Shape := ⟨3, ![16, 4096, 512]⟩
abbrev S16x4096x32 : Shape := ⟨3, ![16, 4096, 32]⟩
abbrev S_ : Shape := ⟨0, ![]⟩
abbrev S16x4096 : Shape := ⟨2, ![16, 4096]⟩
abbrev S16x4096x1 : Shape := ⟨3, ![16, 4096, 1]⟩
abbrev S1x1x1x1 : Shape := ⟨4, ![1, 1, 1, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S512x32, .f32⟩
  | .hbm, ⟨2, _⟩ => ⟨S1, .f32⟩
  | .hbm, ⟨3, _⟩ => ⟨S16x512x4096, .f32⟩
  | .hbm, ⟨4, _⟩ => ⟨S16x4096x512, .f32⟩
  | .hbm, ⟨5, _⟩ => ⟨S16x4096x32, .f32⟩
  | .hbm, ⟨6, _⟩ => ⟨S_, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096x1, .f32⟩
  | .hbm, ⟨12, _⟩ => ⟨S16x4096x32, .f32⟩
  | .hbm, ⟨13, _⟩ => ⟨S16x4096x32, .f32⟩
  | .hbm, ⟨14, _⟩ => ⟨S16x4096x32, .f32⟩
  | .hbm, ⟨15, _⟩ => ⟨S_, .f32⟩
  | .hbm, ⟨16, _⟩ => ⟨S16x4096, .f32⟩
  | .hbm, ⟨17, _⟩ => ⟨S16x4096x1, .f32⟩
  | .hbm, ⟨18, _⟩ => ⟨S16x4096x32, .f32⟩
  | .hbm, ⟨19, _⟩ => ⟨S16x4096x32, .f32⟩
  | .hbm, ⟨20, _⟩ => ⟨S16x4096x512, .f32⟩
  | .hbm, ⟨21, _⟩ => ⟨S16x512x4096, .f32⟩
  | .hbm, ⟨22, _⟩ => ⟨S16x512x64x64, .f32⟩
  | .hbm, ⟨23, _⟩ => ⟨S1x1x1x1, .f32⟩
  | .hbm, ⟨24, _⟩ => ⟨S16x512x64x64, .f32⟩
  | .hbm, ⟨25, _⟩ => ⟨S16x512x64x64, .f32⟩
  | .hbm, ⟨26, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  transposes_S16x512x4096_S16x4096x512_0_2_1 : S16x512x4096.Transposes [0, 2, 1] S16x4096x512
  reducesTo_S16x4096x32_S16x4096_d2 : S16x4096x32.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x32_0_1_2 : S16x4096x1.BroadcastsInDim S16x4096x32 (![0, 1, 2] : Fin 3 → Fin S16x4096x32.rank)
  transposes_S16x4096x512_S16x512x4096_0_2_1 : S16x4096x512.Transposes [0, 2, 1] S16x512x4096
  shapeCasts_S16x512x4096_S16x512x64x64 : S16x512x4096.ShapeCasts S16x512x64x64
  bcast_S1_S1x1x1x1_3 : S1.BroadcastsInDim S1x1x1x1 (![3] : Fin 1 → Fin S1x1x1x1.rank)
  bcast_S1x1x1x1_S16x512x64x64_0_1_2_3 : S1x1x1x1.BroadcastsInDim S16x512x64x64 (![0, 1, 2, 3] : Fin 4 → Fin S16x512x64x64.rank)
  dot_S16x4096x512_S512x32_S16x4096x32_2_0_01_1_n_n_wf : DotDims.WF S16x4096x512 S512x32 S16x4096x32 [2] [0] [0, 1] [1] [] []
  dot_S16x4096x32_S512x32_S16x4096x512_2_1_01_0_n_n_wf : DotDims.WF S16x4096x32 S512x32 S16x4096x512 [2] [1] [0, 1] [0] [] []

variable [Facts₀]

def dot_S16x4096x512_S512x32_S16x4096x32_2_0_01_1_n_n : DotDims S16x4096x512 S512x32 S16x4096x32 where
  lhsContracting := [2]
  rhsContracting := [0]
  lhsNonContracting := [0, 1]
  rhsNonContracting := [1]
  lhsBatch := []
  rhsBatch := []
  wf := dot_S16x4096x512_S512x32_S16x4096x32_2_0_01_1_n_n_wf
def dot_S16x4096x32_S512x32_S16x4096x512_2_1_01_0_n_n : DotDims S16x4096x32 S512x32 S16x4096x512 where
  lhsContracting := [2]
  rhsContracting := [1]
  lhsNonContracting := [0, 1]
  rhsNonContracting := [0]
  lhsBatch := []
  rhsBatch := []
  wf := dot_S16x4096x32_S512x32_S16x4096x512_2_1_01_0_n_n_wf

class Facts : Prop extends Facts₀ where

variable [Facts]
-- ==== Proof.Spec.lean ====
/-
  The function both programs compute, stated once over plain coordinates.

  For one pixel (a batch element `b` and a position `n` of the flattened 64×64 image) let `x : Fin 512 → EReal` be its
  512 channel values and `cw : Fin 512 → Fin 32 → EReal` the codewords. The pixel's scores against the 32 codewords are
  `s k = ∑ d, x d · cw d k`; its assignment weights are the softmax of the scores, taken the numerically guarded way:
  `m = max(−∞, max_k s k)`, `e k = exp (s k − m)`, `a k = e k / ∑ k', e k'`; and the result at channel `d` is
  `x d + g · ∑ k, cw d k · a k`, the input plus `g` times the codewords mixed by the weights.

  `G3` is that function over the array laid out `[16, 512, 4096]` (batch, channel, position), `G4` the same over the
  argument's own layout `[16, 512, 64, 64]`: the two layouts have one row-major order, so `G4` is `G3` between two
  shape casts.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The value both programs start a row maximum from: the f32 word of −∞. -/
abbrev negInf : EReal := Ideal.ofBits .f32 0xFF800000#32

/-- A pixel's scores: its channel values against each codeword, summed over the 512 channels. -/
def score (x : Fin 512 → EReal) (cw : Fin 512 → Fin 32 → EReal) (k : Fin 32) : EReal :=
  ∑ d : Fin 512, x d * cw d k

/-- The guard subtracted before exponentiating: the largest of the 32 scores, folded from −∞, and once more against −∞. -/
def rowMax (s : Fin 32 → EReal) : EReal :=
  max negInf ((Finset.univ : Finset (Fin 32)).fold max negInf s)

/-- The exponential of a score less the guard. -/
def ex (s : Fin 32 → EReal) (k : Fin 32) : EReal := Ideal.exp (s k - rowMax s)

/-- The softmax weight of codeword `k`: its exponential over the sum of the 32 exponentials. -/
def soft (s : Fin 32 → EReal) (k : Fin 32) : EReal := Ideal.div (ex s k) (∑ k' : Fin 32, ex s k')

/-- The result for one pixel at channel `d`: the input there plus `g` times the weighted mix of the codewords' channel `d`. -/
def pixel (x : Fin 512 → EReal) (cw : Fin 512 → Fin 32 → EReal) (g : EReal) (d : Fin 512) : EReal :=
  x d + g * ∑ k : Fin 32, cw d k * soft (score x cw) k

abbrev S4 : Shape := ⟨4, ![16, 512, 64, 64]⟩
abbrev S3 : Shape := ⟨3, ![16, 512, 4096]⟩
abbrev Scw : Shape := ⟨2, ![512, 32]⟩

theorem cast43 : S4.ShapeCasts S3 := by decide
theorem cast34 : S3.ShapeCasts S4 := by decide

/-- The result over the layout (batch, channel, position): entry `(b, d, n)` is pixel `(b, n)`'s result at channel `d`. -/
def G3 (X : S3.Idx → EReal) (cw : Scw.Idx → EReal) (g : EReal) : S3.Idx → EReal :=
  fun j => pixel (fun d => X (ix3 (j 0) d (j 2))) (fun d k => cw (ix2 d k)) g (j 1)

/-- The result over the argument's layout (batch, channel, row, column). -/
def G4 (X : S4.Idx → EReal) (cw : Scw.Idx → EReal) (g : EReal) : S4.Idx → EReal :=
  shapeCast S4 (G3 (shapeCast S3 X cast43) cw g) cast34

end Cert.Spec

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.Payload.lean ====
/-
  What the kernel body stores, read at one index, is the specification's pixel function of the loaded blocks.

  The body's arithmetic is a chain of array operations on three loaded blocks: the codewords `cw : [512, 32]`, the
  input block `x : [1, 512, 1024]` (one batch element, 512 channels, 1024 positions) and the scalar `g : [1, 1]`.
  Each stage is named here as a function of the earlier ones and read at explicit coordinates:

    scores   s (n, k) = ∑ d, x (0, d, n) · cw (d, k)          (a product contracting the channel axis of both operands)
    guard    m (n, k) = max(−∞, max_k' s (n, k'))             (row maximum folded from −∞, kept as a column and broadcast)
    exps     e (n, k) = exp (s (n, k) − m (n, k))
    sums     t (n, k) = ∑ k', e (n, k')                       (row sum kept as a column and broadcast)
    weights  a (n, k) = e (n, k) / t (n, k)
    mix      y (d, n) = ∑ k, cw (d, k) · a (n, k)             (a product contracting the codeword axis of both operands)
    result   r (z, d, n) = x (0, d, n) + g · y (d, n)

  At the ideal values a change of float format is the identity, so the narrowing steps before the two products vanish.
  Reading the stages at coordinates and substituting gives, entry by entry, the pixel function of the specification.
-/
import proofs.«166523_j50646254355197_1_alg».proof.Proof.Gen.KernelIdeal.Skeleton
import proofs.«166523_j50646254355197_1_alg».proof.Proof.Spec
import proofs.«166523_j50646254355197_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen

/-! ## The stages, named -/

/-- The scores: the input block (its unit batch axis dropped) against the codewords, contracting the channel axis. -/
def scoresV (v0 : FVec Ideal S512x32 .f32) (v2 : FVec Ideal S1x512x1024 .f32) : FVec Ideal S1024x32 .f32 :=
  matmul dot_S512x1024_S512x32_S1024x32_0_0_1_1_n_n none
    (truncf .bf16 (shapeCast S512x1024 v2 shapeCasts_S1x512x1024_S512x1024) bitsLt_bf16_f32)
    (truncf .bf16 v0 bitsLt_bf16_f32)
    (constant (F := Ideal) S1024x32 .f32 0x00000000#32)

/-- The guard: each row's maximum folded from −∞, once more against −∞, kept as a column and broadcast over the row. -/
def guardV (s : FVec Ideal S1024x32 .f32) : FVec Ideal S1024x32 .f32 :=
  broadcastTo S1024x32
    (shapeCast S1024x1
      (maximumf (broadcast S1024 (Scalar.ofBits (F := Ideal) .f32 0xFF800000#32))
        (multiReduction (F := Ideal) .maximumf [1] S1024 s 0xFF800000#32 reduces_S1024x32_S1024 (.inl rfl) rfl))
      shapeCasts_S1024_S1024x1)
    broadcasts_S1024x1_S1024x32

/-- The exponentials of the scores less the guard. -/
def expV (s : FVec Ideal S1024x32 .f32) : FVec Ideal S1024x32 .f32 :=
  exp (subf s (guardV s))

/-- Each row's sum, kept as a column and broadcast over the row. -/
def sumV (e : FVec Ideal S1024x32 .f32) : FVec Ideal S1024x32 .f32 :=
  broadcastTo S1024x32
    (shapeCast S1024x1
      (multiReduction (F := Ideal) .add [1] S1024 e 0x00000000#32 reduces_S1024x32_S1024 (.inl rfl) rfl)
      shapeCasts_S1024_S1024x1)
    broadcasts_S1024x1_S1024x32

/-- The weights: each exponential over its row's sum. -/
def softV (e : FVec Ideal S1024x32 .f32) : FVec Ideal S1024x32 .f32 :=
  divf e (sumV e)

/-- The mix: the codewords against the weights, contracting the codeword axis. -/
def mixV (v0 : FVec Ideal S512x32 .f32) (a : FVec Ideal S1024x32 .f32) : FVec Ideal S512x1024 .f32 :=
  matmul dot_S512x32_S1024x32_S512x1024_1_1_0_0_n_n none
    (truncf .bf16 v0 bitsLt_bf16_f32)
    (truncf .bf16 a bitsLt_bf16_f32)
    (constant (F := Ideal) S512x1024 .f32 0x00000000#32)

/-- The stored block: the input plus the scalar times the mix, with the unit batch axis put back. -/
def outV (v0 : FVec Ideal S512x32 .f32) (v2 : FVec Ideal S1x512x1024 .f32) (v5 : FVec Ideal S1x1 .f32) :
    FVec Ideal S1x512x1024 .f32 :=
  shapeCast S1x512x1024
    (addf (shapeCast S512x1024 v2 shapeCasts_S1x512x1024_S512x1024)
      (mulf (broadcast S512x1024 (extractAt ![0, 0] v5 inpos_S1x1_p0_0))
        (mixV v0 (softV (expV (scoresV v0 v2))))))
    shapeCasts_S512x1024_S1x512x1024

/-- The body's value is that composition: its lines substitute to it. -/
theorem pay_eq_outV (v0 : Vec Ideal S512x32 .f32) (v2 : Vec Ideal S1x512x1024 .f32) (v5 : Vec Ideal S1x1 .f32) :
    k0_pay1 (F := Ideal) v0 v2 v5 = outV v0 v2 v5 := rfl

/-! ## The first product: scores -/

/-- The left operand's contracted axis (channels) reads the contraction position. -/
theorem lhs1_0 (j : S1024x32.Idx) (q : dot_S512x1024_S512x32_S1024x32_0_0_1_1_n_n.contr.Idx) :
    (dot_S512x1024_S512x32_S1024x32_0_0_1_1_n_n.lhsIdx j q 0).val = (q ⟨0, by decide⟩).val :=
  dot_S512x1024_S512x32_S1024x32_0_0_1_1_n_n.lhsIdx_val_of_single rfl j q
/-- The left operand's kept axis (positions) reads the result's row. -/
theorem lhs1_1 (j : S1024x32.Idx) (q : dot_S512x1024_S512x32_S1024x32_0_0_1_1_n_n.contr.Idx) :
    (dot_S512x1024_S512x32_S1024x32_0_0_1_1_n_n.lhsIdx j q 1).val = (j 0).val := by
  unfold DotDims.lhsIdx
  rw [dif_neg (show ¬(1 : Fin S512x1024.rank) ∈ dot_S512x1024_S512x32_S1024x32_0_0_1_1_n_n.lhsBatch by decide), dif_pos (show (1 : Fin S512x1024.rank) ∈ dot_S512x1024_S512x32_S1024x32_0_0_1_1_n_n.lhsNonContracting by decide)]
  rfl
/-- The right operand's contracted axis (channels) reads the contraction position. -/
theorem rhs1_0 (j : S1024x32.Idx) (q : dot_S512x1024_S512x32_S1024x32_0_0_1_1_n_n.contr.Idx) :
    (dot_S512x1024_S512x32_S1024x32_0_0_1_1_n_n.rhsIdx j q 0).val = (q ⟨0, by decide⟩).val :=
  dot_S512x1024_S512x32_S1024x32_0_0_1_1_n_n.rhsIdx_val_of_single rfl j q
/-- The right operand's kept axis (codewords) reads the result's column. -/
theorem rhs1_1 (j : S1024x32.Idx) (q : dot_S512x1024_S512x32_S1024x32_0_0_1_1_n_n.contr.Idx) :
    (dot_S512x1024_S512x32_S1024x32_0_0_1_1_n_n.rhsIdx j q 1).val = (j 1).val := by
  unfold DotDims.rhsIdx
  rw [dif_neg (show ¬(1 : Fin S512x32.rank) ∈ dot_S512x1024_S512x32_S1024x32_0_0_1_1_n_n.rhsBatch by decide), dif_pos (show (1 : Fin S512x32.rank) ∈ dot_S512x1024_S512x32_S1024x32_0_0_1_1_n_n.rhsNonContracting by decide)]
  rfl

/-- The scores at position `n` and codeword `k`: the position's channel values against the codeword, summed over the channels. -/
theorem scoresV_apply (v0 : FVec Ideal S512x32 .f32) (v2 : FVec Ideal S1x512x1024 .f32) (n : Fin 1024) (k : Fin 32) :
    scoresV v0 v2 (ix2 n k) = ∑ d' : Fin 512, v2 (ix3 (0 : Fin 1) d' n) * v0 (ix2 d' k) := by
  unfold scoresV
  refine (Ideal.matmul_constant_zero_apply dot_S512x1024_S512x32_S1024x32_0_0_1_1_n_n none _ _ (ix2 n k)).trans ?_
  rw [← Equiv.sum_comp (contrEquiv1 dot_S512x1024_S512x32_S1024x32_0_0_1_1_n_n 512 rfl rfl).symm]
  refine Finset.sum_congr rfl fun d' _ => ?_
  have hk := contrEquiv1_symm_val dot_S512x1024_S512x32_S1024x32_0_0_1_1_n_n 512 rfl rfl d'
  have el : dot_S512x1024_S512x32_S1024x32_0_0_1_1_n_n.lhsIdx (ix2 n k) ((contrEquiv1 dot_S512x1024_S512x32_S1024x32_0_0_1_1_n_n 512 rfl rfl).symm d') = ix2 d' n := funext fun a => Fin.ext (by
    match a with
    | ⟨0, _⟩ => exact (lhs1_0 _ _).trans hk
    | ⟨1, _⟩ => exact lhs1_1 _ _)
  have er : dot_S512x1024_S512x32_S1024x32_0_0_1_1_n_n.rhsIdx (ix2 n k) ((contrEquiv1 dot_S512x1024_S512x32_S1024x32_0_0_1_1_n_n 512 rfl rfl).symm d') = ix2 d' k := funext fun a => Fin.ext (by
    match a with
    | ⟨0, _⟩ => exact (rhs1_0 _ _).trans hk
    | ⟨1, _⟩ => exact rhs1_1 _ _)
  rw [el, er]
  exact congrArg (· * v0 (ix2 d' k)) (shapeCast_1ab_ab_apply v2 shapeCasts_S1x512x1024_S512x1024 d' n)

/-! ## The guard, the exponentials, the row sums and the weights -/

/-- A row's maximum folded from −∞, at row `n`: the fold of `max` over that row's 32 entries. -/
theorem rowFold_apply (s : FVec Ideal S1024x32 .f32) (n : Fin 1024) :
    multiReduction (F := Ideal) .maximumf [1] S1024 s 0xFF800000#32 reduces_S1024x32_S1024 (.inl rfl) rfl (ix1 n)
      = (Finset.univ : Finset (Fin 32)).fold max Cert.Spec.negInf (fun k' => s (ix2 n k')) :=
  (Ideal.multiReduction_maximumf_single s 0xFF800000#32 reduces_S1024x32_S1024 (.inl rfl) rfl (ix1 n)).trans
    (congrArg (fun f : Fin 32 → EReal => (Finset.univ : Finset (Fin 32)).fold max Cert.Spec.negInf f)
      (funext fun k' => congrArg s (funext fun ax => Fin.ext (by
        match ax with
        | ⟨0, _⟩ => rfl
        | ⟨1, _⟩ => rfl))))

/-- The guard at `(n, k)` is the specification's guard of row `n`, whatever the column `k`. -/
theorem guardV_apply (s : FVec Ideal S1024x32 .f32) (n : Fin 1024) (k : Fin 32) :
    guardV s (ix2 n k) = Cert.Spec.rowMax (fun k' => s (ix2 n k')) := by
  unfold guardV
  refine (Cert.Keepdims.broadcastTo_a1_ab_apply _ broadcasts_S1024x1_S1024x32 n k).trans ?_
  refine (Cert.Keepdims.shapeCast_a_a1_apply _ shapeCasts_S1024_S1024x1 n 0).trans ?_
  refine (maximumf_apply _ _ (ix1 n)).trans ?_
  exact congrArg (max Cert.Spec.negInf) (rowFold_apply s n)

/-- The exponentials at `(n, k)`: the specification's, of row `n`. -/
theorem expV_apply (s : FVec Ideal S1024x32 .f32) (n : Fin 1024) (k : Fin 32) :
    expV s (ix2 n k) = Cert.Spec.ex (fun k' => s (ix2 n k')) k :=
  congrArg (fun m => Ideal.exp (s (ix2 n k) - m)) (guardV_apply s n k)

/-- The broadcast row sums at `(n, k)`: the sum of row `n`. -/
theorem sumV_apply (e : FVec Ideal S1024x32 .f32) (n : Fin 1024) (k : Fin 32) :
    sumV e (ix2 n k) = ∑ k' : Fin 32, e (ix2 n k') :=
  Cert.Keepdims.rowSum_keep_bcast_apply (M := 1024) (K := 32) (N := 32) e 0x00000000#32 reduces_S1024x32_S1024
    (.inl rfl) rfl shapeCasts_S1024_S1024x1 broadcasts_S1024x1_S1024x32 n k

/-- The weights at `(n, k)`: the entry over its row's sum. -/
theorem softV_apply (e : FVec Ideal S1024x32 .f32) (n : Fin 1024) (k : Fin 32) :
    softV e (ix2 n k) = Ideal.div (e (ix2 n k)) (∑ k' : Fin 32, e (ix2 n k')) :=
  congrArg (Ideal.div (e (ix2 n k))) (sumV_apply e n k)

/-- The weights of the exponentials at `(n, k)`: the specification's softmax of row `n`. -/
theorem weights_apply (s : FVec Ideal S1024x32 .f32) (n : Fin 1024) (k : Fin 32) :
    softV (expV s) (ix2 n k) = Cert.Spec.soft (fun k' => s (ix2 n k')) k :=
  (softV_apply (expV s) n k).trans
    (congrArg₂ Ideal.div (expV_apply s n k) (Finset.sum_congr rfl fun k' _ => expV_apply s n k'))

/-! ## The second product: the mix -/

/-- The left operand's kept axis (channels) reads the result's row. -/
theorem lhs2_0 (j : S512x1024.Idx) (q : dot_S512x32_S1024x32_S512x1024_1_1_0_0_n_n.contr.Idx) :
    (dot_S512x32_S1024x32_S512x1024_1_1_0_0_n_n.lhsIdx j q 0).val = (j 0).val := by
  unfold DotDims.lhsIdx
  rw [dif_neg (show ¬(0 : Fin S512x32.rank) ∈ dot_S512x32_S1024x32_S512x1024_1_1_0_0_n_n.lhsBatch by decide), dif_pos (show (0 : Fin S512x32.rank) ∈ dot_S512x32_S1024x32_S512x1024_1_1_0_0_n_n.lhsNonContracting by decide)]
  rfl
/-- The left operand's contracted axis (codewords) reads the contraction position. -/
theorem lhs2_1 (j : S512x1024.Idx) (q : dot_S512x32_S1024x32_S512x1024_1_1_0_0_n_n.contr.Idx) :
    (dot_S512x32_S1024x32_S512x1024_1_1_0_0_n_n.lhsIdx j q 1).val = (q ⟨0, by decide⟩).val :=
  dot_S512x32_S1024x32_S512x1024_1_1_0_0_n_n.lhsIdx_val_of_single rfl j q
/-- The right operand's kept axis (positions) reads the result's column. -/
theorem rhs2_0 (j : S512x1024.Idx) (q : dot_S512x32_S1024x32_S512x1024_1_1_0_0_n_n.contr.Idx) :
    (dot_S512x32_S1024x32_S512x1024_1_1_0_0_n_n.rhsIdx j q 0).val = (j 1).val := by
  unfold DotDims.rhsIdx
  rw [dif_neg (show ¬(0 : Fin S1024x32.rank) ∈ dot_S512x32_S1024x32_S512x1024_1_1_0_0_n_n.rhsBatch by decide), dif_pos (show (0 : Fin S1024x32.rank) ∈ dot_S512x32_S1024x32_S512x1024_1_1_0_0_n_n.rhsNonContracting by decide)]
  rfl
/-- The right operand's contracted axis (codewords) reads the contraction position. -/
theorem rhs2_1 (j : S512x1024.Idx) (q : dot_S512x32_S1024x32_S512x1024_1_1_0_0_n_n.contr.Idx) :
    (dot_S512x32_S1024x32_S512x1024_1_1_0_0_n_n.rhsIdx j q 1).val = (q ⟨0, by decide⟩).val :=
  dot_S512x32_S1024x32_S512x1024_1_1_0_0_n_n.rhsIdx_val_of_single rfl j q

/-- The mix at channel `d` and position `n`: the codewords' channel `d` against the position's weights, summed over the codewords. -/
theorem mixV_apply (v0 : FVec Ideal S512x32 .f32) (a : FVec Ideal S1024x32 .f32) (d : Fin 512) (n : Fin 1024) :
    mixV v0 a (ix2 d n) = ∑ k : Fin 32, v0 (ix2 d k) * a (ix2 n k) := by
  unfold mixV
  refine (Ideal.matmul_constant_zero_apply dot_S512x32_S1024x32_S512x1024_1_1_0_0_n_n none _ _ (ix2 d n)).trans ?_
  rw [← Equiv.sum_comp (contrEquiv1 dot_S512x32_S1024x32_S512x1024_1_1_0_0_n_n 32 rfl rfl).symm]
  refine Finset.sum_congr rfl fun k _ => ?_
  have hk := contrEquiv1_symm_val dot_S512x32_S1024x32_S512x1024_1_1_0_0_n_n 32 rfl rfl k
  have el : dot_S512x32_S1024x32_S512x1024_1_1_0_0_n_n.lhsIdx (ix2 d n) ((contrEquiv1 dot_S512x32_S1024x32_S512x1024_1_1_0_0_n_n 32 rfl rfl).symm k) = ix2 d k := funext fun a => Fin.ext (by
    match a with
    | ⟨0, _⟩ => exact lhs2_0 _ _
    | ⟨1, _⟩ => exact (lhs2_1 _ _).trans hk)
  have er : dot_S512x32_S1024x32_S512x1024_1_1_0_0_n_n.rhsIdx (ix2 d n) ((contrEquiv1 dot_S512x32_S1024x32_S512x1024_1_1_0_0_n_n 32 rfl rfl).symm k) = ix2 n k := funext fun a => Fin.ext (by
    match a with
    | ⟨0, _⟩ => exact rhs2_0 _ _
    | ⟨1, _⟩ => exact (rhs2_1 _ _).trans hk)
  rw [el, er]
  rfl

/-! ## The stored block at an index -/

/-- The scalar block's one entry. -/
theorem scalar_apply (v5 : FVec Ideal S1x1 .f32) :
    extractAt ![0, 0] v5 inpos_S1x1_p0_0 = v5 (ix2 (0 : Fin 1) (0 : Fin 1)) :=
  congrArg v5 (funext fun a => Fin.ext (by
    match a with
    | ⟨0, _⟩ => rfl
    | ⟨1, _⟩ => rfl))

/-- The composition at `(z, d, n)`: the pixel function of position `n`'s channel values, the codewords and the scalar, at channel `d`. -/
theorem outV_apply (v0 : FVec Ideal S512x32 .f32) (v2 : FVec Ideal S1x512x1024 .f32) (v5 : FVec Ideal S1x1 .f32)
    (z : Fin 1) (d : Fin 512) (n : Fin 1024) :
    outV v0 v2 v5 (ix3 z d n)
      = Cert.Spec.pixel (fun d' => v2 (ix3 (0 : Fin 1) d' n)) (fun d' k => v0 (ix2 d' k)) (v5 (ix2 (0 : Fin 1) (0 : Fin 1))) d := by
  unfold outV
  refine (shapeCast_ab_1ab_apply _ shapeCasts_S512x1024_S1x512x1024 z d n).trans ?_
  refine (addf_apply _ _ (ix2 d n)).trans ?_
  refine congrArg₂ (· + ·) (shapeCast_1ab_ab_apply v2 shapeCasts_S1x512x1024_S512x1024 d n) ?_
  refine (mulf_apply _ _ (ix2 d n)).trans ?_
  refine congrArg₂ (· * ·) (scalar_apply v5) ?_
  refine (mixV_apply v0 _ d n).trans ?_
  refine Finset.sum_congr rfl fun k _ => congrArg (v0 (ix2 d k) * ·) ?_
  refine (weights_apply (scoresV v0 v2) n k).trans ?_
  exact congrArg (fun f => Cert.Spec.soft f k) (funext fun k' => scoresV_apply v0 v2 n k')

theorem pay_apply (v0 : Vec Ideal S512x32 .f32) (v2 : Vec Ideal S1x512x1024 .f32) (v5 : Vec Ideal S1x1 .f32)
    (z : Fin 1) (d : Fin 512) (n : Fin 1024) :
    k0_pay1 (F := Ideal) v0 v2 v5 (ix3 z d n)
      = Cert.Spec.pixel (fun d' => v2 (ix3 (0 : Fin 1) d' n)) (fun d' k => v0 (ix2 d' k)) (v5 (ix2 (0 : Fin 1) (0 : Fin 1))) d :=
  (congrFun (pay_eq_outV v0 v2 v5) (ix3 z d n)).trans (outV_apply v0 v2 v5 z d n)

end Cert.KernelIdeal.Pay

end
-- ==== Proof.KernelValue.lean ====
/-
  What the kernel's program leaves in its result, read as one function of the arguments.

  The program reshapes the image `[16, 512, 64, 64]` to `[16, 512, 4096]` (batch, channel, position) and the scalar `[1]` to
  `[1, 1]`, runs the kernel over a grid of 16 × 4 points, and reshapes the kernel's output back. Grid point `(b, q)` is handed
  the whole codeword table, the scalar, and the block of the reshaped image at batch `b`, all 512 channels, positions
  `1024·q … 1024·q + 1023`; it writes the same block of the output. A pixel's result depends on that pixel's 512 channel
  values only, and a block holds every channel of each of its pixels: so what a point writes is the restriction to its block
  of the whole-array function `Spec.G3`. The 64 blocks tile the output array, hence the array after the run is `Spec.G3` of
  the reshaped arguments, and the program's result is its reshape, `Spec.G4` of the arguments.
-/
import proofs.«166523_j50646254355197_1_alg».proof.Proof.Gen.KernelIdeal.Frame
import proofs.«166523_j50646254355197_1_alg».proof.Proof.Spec
import proofs.«166523_j50646254355197_1_alg».proof.Proof.Payload
import Idealize.ShloMosaic.Lib.Pipeline.Value
import Idealize.ShloMosaic.Lib.ValueIdx
import Idealize.ShloMosaic.Lib.StableHlo.Run

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

/-! ## One stored block is a block of the whole-array function -/

/-- What the body stores at entry `y` of its block is `Spec.G3` at an array index `i`, as soon as the loaded image block's
    column of pixel `y 2` is the array's column of pixel `(i 0, i 2)`, the loaded table is the table, the loaded scalar is `g`,
    and `y` and `i` name the same channel. -/
theorem stored_eq (X : Spec.S3.Idx → EReal) (cw : Spec.Scw.Idx → EReal) (g : EReal)
    (cb : Vec Ideal S512x32 .f32) (gb : Vec Ideal S1x1 .f32) (xb : Vec Ideal S1x512x1024 .f32)
    (y : S1x512x1024.Idx) (i : Spec.S3.Idx)
    (hc : ∀ (d' : Fin 512) (k : Fin 32), cb (ix2 d' k) = cw (ix2 d' k))
    (hg : gb (ix2 (0 : Fin 1) (0 : Fin 1)) = g)
    (hx : ∀ d' : Fin 512, xb (ix3 (0 : Fin 1) d' (y 2)) = X (ix3 (i 0) d' (i 2)))
    (hi1 : (i 1).val = (y 1).val) :
    k0_pay1 (F := Ideal) cb xb gb y = Spec.G3 X cw g i := by
  obtain ⟨z, d, n, rfl⟩ : ∃ (z : Fin 1) (d : Fin 512) (n : Fin 1024), y = ix3 z d n := ⟨y 0, y 1, y 2, eq_ix3 y⟩
  rw [Pay.pay_apply]
  unfold Spec.G3
  have e1 : (fun d' : Fin 512 => xb (ix3 (0 : Fin 1) d' n)) = fun d' => X (ix3 (i 0) d' (i 2)) := funext hx
  have e2 : (fun (d' : Fin 512) (k : Fin 32) => cb (ix2 d' k)) = fun d' k => cw (ix2 d' k) :=
    funext fun d' => funext fun k => hc d' k
  rw [e1, e2, hg]
  exact congrArg _ (Fin.ext hi1.symm)

variable (m : (ℓ : Loc nD τ sig) → Buf (Elt Ideal) ℓ) (ρ : Dev nD → PrngReg)

/-! ## The arrays as the kernel finds them -/

/-- The kernel's image operand is the argument image reshaped to (batch, channel, position). -/
theorem entry_image (c : Dev nD) :
    (V m c main_v0 : S16x512x4096.Idx → EReal)
      = shapeCast S16x512x4096 (m ((c : Thread nD τ).loc main_arg0)) shapeCasts_S16x512x64x64_S16x512x4096 := by
  show StableHlo.after hostOps0 (fun b => m (c, b)) (Proc.devRef .tc main_v0) = _
  after_results
  rfl

/-- The kernel's scalar operand is the argument scalar reshaped to one row and one column. -/
theorem entry_scalar (c : Dev nD) :
    (V m c main_v1 : S1x1.Idx → EReal) = shapeCast S1x1 (m ((c : Thread nD τ).loc main_arg2)) shapeCasts_S1_S1x1 := by
  show StableHlo.after hostOps0 (fun b => m (c, b)) (Proc.devRef .tc main_v1) = _
  after_results
  rfl

/-- Its one entry is the argument's one entry. -/
theorem entry_scalar_apply (c : Dev nD) :
    (V m c main_v1 : S1x1.Idx → EReal) (ix2 (0 : Fin 1) (0 : Fin 1)) = m ((c : Thread nD τ).loc main_arg2) (ix1 (0 : Fin 1)) := by
  rw [entry_scalar]
  exact shapeCast_apply _ shapeCasts_S1_S1x1 _ _ (by rw [Shape.rowMajor_val_one, Shape.rowMajor_val_two]; rfl)

/-! ## Where each point's blocks sit -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 grid points: the table and the scalar are always their one block; the image
    block and the output block move together, over all channels, batch below 16 and position block below 4. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = win0_3.index t (0 : Fin 3)
    ∧ win0_2.index t (1 : Fin 3) = 0 ∧ win0_3.index t (1 : Fin 3) = 0
    ∧ win0_2.index t (2 : Fin 3) = win0_3.index t (2 : Fin 3)
    ∧ win0_3.index t (0 : Fin 3) ≤ 15 ∧ win0_3.index t (2 : Fin 3) ≤ 3 :=
  (by decide +kernel : ∀ t : Fin grid0.N, _)

/-- Every (batch, position block) pair is some point's. -/
theorem idx_onto : ∀ (q0 : Fin 16) (q2 : Fin 4), ∃ t : Fin cfg0.N, win0_3.index t = ![q0.val, 0, q2.val] :=
  (by decide +kernel : ∀ (q0 : Fin 16) (q2 : Fin 4), ∃ t : Fin grid0.N, win0_3.index t = ![q0.val, 0, q2.val])

/-! ## What a point writes back -/

/-- WHAT POINT `t` WRITES BACK is block `t` of `Spec.G3` of the arrays the kernel finds. -/
theorem flushed_eq (c : Dev nD) (t : Fin cfg0.N) :
    (dats m 0 c).flushed 3 t
      = ((cfg0.win 3).blk t).view.read (Elt Ideal)
          (Spec.G3 (V m c main_v0) (V m c main_arg1) ((V m c main_v1 : S1x1.Idx → EReal) (ix2 (0 : Fin 1) (0 : Fin 1)))) := by
  show (cfg0.win 3).cut (grid0.coords t) ((dats m 0 c).after 3 t) = _
  rw [after0_3]
  unfold out0_3
  rw [View.canon_unit_zero hz3]
  simp only [View.ld_unit_zero (S := S512x32) hz2, View.ld_unit_zero (S := S1x512x1024) hz3, View.ld_unit_zero (S := S1x1) hz2]
  obtain ⟨a0, a1, b0, b1, e0, e1, f1, e2, l0, l2⟩ := idx_facts t
  funext y
  show k0_pay1 (F := Ideal) (iblk m c 0 t) (iblk m c 2 t) (iblk m c 1 t) y
    = Spec.G3 (V m c main_v0) (V m c main_arg1) ((V m c main_v1 : S1x1.Idx → EReal) (ix2 (0 : Fin 1) (0 : Fin 1))) (((cfg0.win 3).blk t).view.emb y)
  refine stored_eq (V m c main_v0) (V m c main_arg1) ((V m c main_v1 : S1x1.Idx → EReal) (ix2 (0 : Fin 1) (0 : Fin 1)))
    (iblk m c 0 t) (iblk m c 1 t) (iblk m c 2 t) y (((cfg0.win 3).blk t).view.emb y) ?_ ?_ ?_ ?_
  · intro d' k
    show V m c main_arg1 (((cfg0.win 0).blk t).view.emb (ix2 d' k)) = V m c main_arg1 (ix2 d' k)
    refine congrArg _ (funext fun a => Fin.ext ?_)
    match a with
    | ⟨0, _⟩ => show win0_0.index t (0 : Fin 2) * 512 + 1 * d'.val = d'.val; omega
    | ⟨1, _⟩ => show win0_0.index t (1 : Fin 2) * 32 + 1 * k.val = k.val; omega
  · show V m c main_v1 (((cfg0.win 1).blk t).view.emb (ix2 (0 : Fin 1) (0 : Fin 1))) = V m c main_v1 (ix2 (0 : Fin 1) (0 : Fin 1))
    refine congrArg _ (funext fun a => Fin.ext ?_)
    match a with
    | ⟨0, _⟩ => show win0_1.index t (0 : Fin 2) * 1 + 1 * 0 = 0; omega
    | ⟨1, _⟩ => show win0_1.index t (1 : Fin 2) * 1 + 1 * 0 = 0; omega
  · intro d'
    show V m c main_v0 (((cfg0.win 2).blk t).view.emb (ix3 (0 : Fin 1) d' (y 2)))
      = V m c main_v0 (ix3 ((((cfg0.win 3).blk t).view.emb y) 0) d' ((((cfg0.win 3).blk t).view.emb y) 2))
    refine congrArg _ (funext fun a => Fin.ext ?_)
    match a with
    | ⟨0, _⟩ =>
      show win0_2.index t (0 : Fin 3) * 1 + 1 * 0 = win0_3.index t (0 : Fin 3) * 1 + 1 * (y 0).val
      have hy : (y 0).val < 1 := (y 0).isLt
      omega
    | ⟨1, _⟩ => show win0_2.index t (1 : Fin 3) * 512 + 1 * d'.val = d'.val; omega
    | ⟨2, _⟩ => show win0_2.index t (2 : Fin 3) * 1024 + 1 * (y 2).val = win0_3.index t (2 : Fin 3) * 1024 + 1 * (y 2).val; omega
  · show win0_3.index t (1 : Fin 3) * 512 + 1 * (y 1).val = (y 1).val
    omega

/-! ## The blocks tile the output array -/

/-- An index of the output array is in point `t`'s block iff each coordinate is in the block's range on its axis. -/
theorem mem_blk (t : Fin cfg0.N) (i : S16x512x4096.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v2).slice (win0_3.rect t)).set ↔ _
  rw [View.set_slice_whole, Rect.mem_set_unit]
  exact Iff.rfl

/-- Entry `(b, d, n)` lies in the block of the point with batch `b` and position block `n / 1024`. -/
theorem cover (i : S16x512x4096.Idx) :
    ∃ t : Fin cfg0.N, (cfg0.win 3).flush t = true ∧ i ∈ ((cfg0.win 3).blk t).view.set := by
  have hi0 : (i 0).val < 16 := (i 0).isLt
  have hi1 : (i 1).val < 512 := (i 1).isLt
  have hi2 : (i 2).val < 4096 := (i 2).isLt
  obtain ⟨t, ht⟩ := idx_onto ⟨(i 0).val, hi0⟩ ⟨(i 2).val / 1024, by omega⟩
  have q0 : win0_3.index t (0 : Fin 3) = (i 0).val := congrFun ht 0
  have q1 : win0_3.index t (1 : Fin 3) = 0 := congrFun ht 1
  have q2 : win0_3.index t (2 : Fin 3) = (i 2).val / 1024 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- THE OUTPUT ARRAY after the run is `Spec.G3` of the arrays the kernel finds. -/
theorem final (c : Dev nD) :
    (dats m 0 c).arrAt 3 cfg0.N
      = Spec.G3 (V m c main_v0) (V m c main_arg1) ((V m c main_v1 : S1x1.Idx → EReal) (ix2 (0 : Fin 1) (0 : Fin 1))) :=
  (dats m 0 c).arrAt_eq_of_cover 3 _ (fun t _ => flushed_eq m c t) cover

/-! ## The reshape after the kernel, and the run -/

/-- The program's result is the output array reshaped to the argument's layout. -/
theorem result_cast (c : Dev nD) :
    Pipeline.afterTail₀ cfgs (dats m) 0 (V0 m) [hostOps1] c main_v3
      = shapeCast S16x512x64x64 ((dats m 0 c).arrAt 3 cfg0.N) shapeCasts_S16x512x4096_S16x512x64x64 := by
  unfold Pipeline.afterTail₀
  show StableHlo.after hostOps1 _ (Proc.devRef .tc main_v3) = _
  after_results
  exact congrArg (fun A => shapeCast _ A _) (Pipeline.withArrays_arr spec0 launch0.win.arr_inj c _ _ 3)

/-- So it is `Spec.G4` of the arguments. -/
theorem result_eq (c : Dev nD) :
    Pipeline.afterTail₀ cfgs (dats m) 0 (V0 m) [hostOps1] c main_v3
      = Spec.G4 (m ((c : Thread nD τ).loc main_arg0)) (m ((c : Thread nD τ).loc main_arg1))
          (m ((c : Thread nD τ).loc main_arg2) (ix1 (0 : Fin 1))) := by
  rw [result_cast, final, entry_image, entry_scalar_apply, V_main_arg1]
  rfl

/-- Every weakly fair execution of the kernel's program terminates with its result at `Spec.G4` of the arguments and the
    arguments unchanged. -/
theorem run : θ_run defs (onTc (τ := τ) (main (F := Ideal))) ⟨m, fun _ => 0, ρ⟩ fun r => ∀ c : Dev nD,
      r.2.mem ((c.tc : Thread nD τ).loc main_v3)
        = Spec.G4 (m ((c : Thread nD τ).loc main_arg0)) (m ((c : Thread nD τ).loc main_arg1))
            (m ((c : Thread nD τ).loc main_arg2) (ix1 (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.Arr

end
-- ==== Proof.RefSpec.lean ====
/-
  The reference program computes the specification.

  The reference lays the input out as (batch, channel, position), moves the channel axis last, and then works pixel by
  pixel: the scores of a pixel are the sums over the 512 channels of its values against each codeword; the guard is the
  largest score, folded from −∞ and taken once more against −∞; the exponentials of the scores less the guard are divided
  by their sum; the weights so obtained mix the codewords; the mix, moved back to the argument's layout and scaled by
  `g`, is added to the input. Each stage is read here at explicit coordinates `(b, n, k)` or `(b, n, d)` and named by the
  specification's `score`, `rowMax`, `ex`, `soft`, `pixel`; the last step carries the result through the two layouts,
  which share one row-major order.
-/
import proofs.«166523_j50646254355197_1_alg».proof.Proof.Gen.ReferenceIdeal.Read
import proofs.«166523_j50646254355197_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators
open Idealize.ShloMosaic Idealize.ShloMosaic.ValueIdx

namespace Cert.ReferenceIdeal.RefSpec

open Cert.ReferenceIdeal Cert.ReferenceIdeal.Gen Cert.ReferenceIdeal.Read

/-- The channel values of pixel `(b, n)`, read from the input laid out (batch, channel, position). -/
def px (x0 : (⟨S16x512x64x64, .f32⟩ : BufTy).Contents (Elt Ideal)) (b : Fin 16) (n : Fin 4096) : Fin 512 → EReal :=
  fun d => val_main_v0 (F := Ideal) x0 (ix3 b d n)

/-- The codewords by coordinates. -/
def cwf (x1 : (⟨S512x32, .f32⟩ : BufTy).Contents (Elt Ideal)) : Fin 512 → Fin 32 → EReal :=
  fun d k => x1 (ix2 d k)

/-- The scores of pixel `(b, n)` as the reference holds them: the first contraction's row `(b, n)`. -/
def sc (x0 : (⟨S16x512x64x64, .f32⟩ : BufTy).Contents (Elt Ideal)) (x1 : (⟨S512x32, .f32⟩ : BufTy).Contents (Elt Ideal))
    (b : Fin 16) (n : Fin 4096) : Fin 32 → EReal :=
  fun k => val_main_v2 (F := Ideal) x0 x1 (ix3 b n k)

/-- The first contraction at `(b, n, k)` is the sum over the channels `d` of the pixel's value at `d` times codeword
    `k`'s: the transposed input at `(b, n, d)` is the input at `(b, d, n)`. -/
theorem sc_eq_score (x0 : (⟨S16x512x64x64, .f32⟩ : BufTy).Contents (Elt Ideal)) (x1 : (⟨S512x32, .f32⟩ : BufTy).Contents (Elt Ideal))
    (b : Fin 16) (n : Fin 4096) :
    sc x0 x1 b n = Cert.Spec.score (px x0 b n) (cwf x1) := by
  funext k
  unfold sc Cert.Spec.score px cwf
  refine (val_main_v2_apply x0 x1 (ix3 b n k)).trans ?_
  refine Finset.sum_congr rfl fun d _ => ?_
  have e1 : lidx_main_v2 (ix3 b n k) d = ix3 b n d :=
    funext fun a => Fin.ext (by match a with | ⟨0, _⟩ => rfl | ⟨1, _⟩ => rfl | ⟨2, _⟩ => rfl)
  have e2 : ridx_main_v2 (ix3 b n k) d = ix2 d k :=
    funext fun a => Fin.ext (by match a with | ⟨0, _⟩ => rfl | ⟨1, _⟩ => rfl)
  have e3 : idx_main_v1 (ix3 b n d) = ix3 b d n :=
    funext fun a => Fin.ext (by match a with | ⟨0, _⟩ => rfl | ⟨1, _⟩ => rfl | ⟨2, _⟩ => rfl)
  rw [e1, e2, val_main_v1_apply, e3]

/-- Two folds of one function from one value whose operations are equal are equal. -/
theorem fold_congr_op {α β : Type} (op op' : β → β → β) [Std.Commutative op] [Std.Associative op]
    [Std.Commutative op'] [Std.Associative op'] (h : op = op') (b : β) (f : α → β) (s : Finset α) :
    s.fold op b f = s.fold op' b f := by
  subst h; rfl

/-- Pixel `(b, n)` with coordinate `k` put back on the reduced codeword axis is the index `(b, n, k)`. -/
theorem lift_eq (hR : S16x4096x32.Reduces [2] S16x4096) (b : Fin 16) (n : Fin 4096) (k : Fin 32) :
    hR.lift (ix2 b n) k = ix3 b n k :=
  funext fun a => Fin.ext (by match a with | ⟨0, _⟩ => rfl | ⟨1, _⟩ => rfl | ⟨2, _⟩ => rfl)

/-- The reduction over the codeword axis at `(b, n)` is the fold of `max` from −∞ over the pixel's 32 scores. -/
theorem v3_eq_fold (x0 : (⟨S16x512x64x64, .f32⟩ : BufTy).Contents (Elt Ideal)) (x1 : (⟨S512x32, .f32⟩ : BufTy).Contents (Elt Ideal))
    (b : Fin 16) (n : Fin 4096) :
    val_main_v3 (F := Ideal) x0 x1 (ix2 b n)
      = (Finset.univ : Finset (Fin 32)).fold max Cert.Spec.negInf (sc x0 x1 b n) := by
  have hR : S16x4096x32.Reduces [2] S16x4096 := by decide
  unfold val_main_v3
  refine (Host.reduce_eq_fold_single (FloatOps.maximumf (F := Ideal) (φ := .f32)) (val_main_v2 (F := Ideal) x0 x1)
      (val_main_cst (F := Ideal)) reducesTo_S16x4096x32_S16x4096_d2 hR h_S_ (ix2 b n)).trans ?_
  have ef : (val_main_v2 (F := Ideal) x0 x1 ∘ hR.lift (ix2 b n)) = sc x0 x1 b n :=
    funext fun k => congrArg (val_main_v2 (F := Ideal) x0 x1) (lift_eq hR b n k)
  rw [ef, val_main_cst_apply, Ideal.ofBits_def]
  exact fold_congr_op _ _ (funext fun x => funext fun y => Ideal.maximumf_def x y) _ _ _

/-- The guard at `(b, n)`: the reference takes the fold once more against −∞. -/
theorem v5_eq_rowMax (x0 : (⟨S16x512x64x64, .f32⟩ : BufTy).Contents (Elt Ideal)) (x1 : (⟨S512x32, .f32⟩ : BufTy).Contents (Elt Ideal))
    (b : Fin 16) (n : Fin 4096) :
    val_main_v5 (F := Ideal) x0 x1 (ix2 b n) = Cert.Spec.rowMax (sc x0 x1 b n) := by
  rw [val_main_v5_apply, Ideal.maximumf_def, v3_eq_fold, val_main_v4_apply, val_main_cst_0_apply, Ideal.ofBits_def]
  unfold Cert.Spec.rowMax
  rfl

/-- The exponential at `(b, n, k)`: the guard is broadcast along the codeword axis, so the stage is the exponential of
    score `k` less the pixel's guard. -/
theorem v9_eq_ex (x0 : (⟨S16x512x64x64, .f32⟩ : BufTy).Contents (Elt Ideal)) (x1 : (⟨S512x32, .f32⟩ : BufTy).Contents (Elt Ideal))
    (b : Fin 16) (n : Fin 4096) (k : Fin 32) :
    val_main_v9 (F := Ideal) x0 x1 (ix3 b n k) = Cert.Spec.ex (sc x0 x1 b n) k := by
  have e7 : val_main_v7 (F := Ideal) x0 x1 (ix3 b n k) = Cert.Spec.rowMax (sc x0 x1 b n) := by
    rw [val_main_v7_apply, val_main_v6_apply]
    have ei : idx_main_v6 (idx_main_v7 (ix3 b n k)) = ix2 b n :=
      funext fun a => Fin.ext (by match a with | ⟨0, _⟩ => rfl | ⟨1, _⟩ => rfl)
    rw [ei]
    exact v5_eq_rowMax x0 x1 b n
  rw [val_main_v9_apply, Ideal.hostUnary_exp_def, val_main_v8_apply, Ideal.subf_def, e7]
  rfl

/-- The weight at `(b, n, k)`: the sum of the 32 exponentials starts from the zero word, which is `0`, and is
    broadcast along the codeword axis; the stage is exponential `k` over that sum. -/
theorem v13_eq_soft (x0 : (⟨S16x512x64x64, .f32⟩ : BufTy).Contents (Elt Ideal)) (x1 : (⟨S512x32, .f32⟩ : BufTy).Contents (Elt Ideal))
    (b : Fin 16) (n : Fin 4096) (k : Fin 32) :
    val_main_v13 (F := Ideal) x0 x1 (ix3 b n k) = Cert.Spec.soft (sc x0 x1 b n) k := by
  have e12 : val_main_v12 (F := Ideal) x0 x1 (ix3 b n k) = ∑ k' : Fin 32, Cert.Spec.ex (sc x0 x1 b n) k' := by
    rw [val_main_v12_apply, val_main_v11_apply]
    have ei : idx_main_v11 (idx_main_v12 (ix3 b n k)) = ix2 b n :=
      funext fun a => Fin.ext (by match a with | ⟨0, _⟩ => rfl | ⟨1, _⟩ => rfl)
    rw [ei, val_main_v10_apply]
    have ez : (val_main_cst_1 (F := Ideal)) (Shape.Idx.first h_S_) = 0 := Ideal.ofBits_zero_f32
    rw [ez, zero_add]
    refine Finset.sum_congr rfl fun k' _ => ?_
    have ej : idx_main_v10 (ix2 b n) k' = ix3 b n k' :=
      funext fun a => Fin.ext (by match a with | ⟨0, _⟩ => rfl | ⟨1, _⟩ => rfl | ⟨2, _⟩ => rfl)
    rw [ej]
    exact v9_eq_ex x0 x1 b n k'
  rw [val_main_v13_apply, Ideal.hostDivf_def, e12, v9_eq_ex]
  rfl

/-- The second contraction at `(b, n, d)`: the sum over the codewords of the pixel's weight times the codeword's
    channel `d`. -/
theorem v14_eq_mix (x0 : (⟨S16x512x64x64, .f32⟩ : BufTy).Contents (Elt Ideal)) (x1 : (⟨S512x32, .f32⟩ : BufTy).Contents (Elt Ideal))
    (b : Fin 16) (n : Fin 4096) (d : Fin 512) :
    val_main_v14 (F := Ideal) x0 x1 (ix3 b n d) = ∑ k : Fin 32, cwf x1 d k * Cert.Spec.soft (sc x0 x1 b n) k := by
  refine (val_main_v14_apply x0 x1 (ix3 b n d)).trans ?_
  refine Finset.sum_congr rfl fun k _ => ?_
  have e1 : lidx_main_v14 (ix3 b n d) k = ix3 b n k :=
    funext fun a => Fin.ext (by match a with | ⟨0, _⟩ => rfl | ⟨1, _⟩ => rfl | ⟨2, _⟩ => rfl)
  have e2 : ridx_main_v14 (ix3 b n d) k = ix2 d k :=
    funext fun a => Fin.ext (by match a with | ⟨0, _⟩ => rfl | ⟨1, _⟩ => rfl)
  rw [e1, e2, v13_eq_soft]
  exact mul_comm _ _

/-- Row-major position `N` of an array of 16 · 512 · 4096 entries, split as (batch, channel, position), is `N` again. -/
theorem nat_split (N : ℕ) : (N / 2097152 * 512 + N / 4096 % 512) * 4096 + N % 4096 = N := by omega

/-- The two layouts share one row-major order: index `i` of (batch, channel, row, column) and index `idx_main_v16 i`
    of (batch, channel, position) are at the same position. -/
theorem rowMajor_v16 (i : S16x512x64x64.Idx) :
    (S16x512x4096.rowMajor (idx_main_v16 i)).val = (S16x512x64x64.rowMajor i).val := by
  rewrite [Shape.rowMajor_val_three, Shape.rowMajor_val_four]
  exact nat_split ((((i 0).val * 512 + (i 1).val) * 64 + (i 2).val) * 64 + (i 3).val)

/-- In the layout (batch, channel, position): the input plus `g` times the mix moved back to that layout is the
    specification there. -/
theorem ref3 (x0 : (⟨S16x512x64x64, .f32⟩ : BufTy).Contents (Elt Ideal)) (x1 : (⟨S512x32, .f32⟩ : BufTy).Contents (Elt Ideal))
    (g : EReal) (j : S16x512x4096.Idx) :
    val_main_v0 (F := Ideal) x0 j + g * val_main_v15 (F := Ideal) x0 x1 j
      = Cert.Spec.G3 (val_main_v0 (F := Ideal) x0) x1 g j := by
  obtain ⟨b, d, n, rfl⟩ : ∃ (b : Fin 16) (d : Fin 512) (n : Fin 4096), j = ix3 b d n := ⟨_, _, _, eq_ix3 j⟩
  have e15 : val_main_v15 (F := Ideal) x0 x1 (ix3 b d n)
      = ∑ k : Fin 32, cwf x1 d k * Cert.Spec.soft (Cert.Spec.score (px x0 b n) (cwf x1)) k := by
    rw [val_main_v15_apply]
    have ei : idx_main_v15 (ix3 b d n) = ix3 b n d :=
      funext fun a => Fin.ext (by match a with | ⟨0, _⟩ => rfl | ⟨1, _⟩ => rfl | ⟨2, _⟩ => rfl)
    rw [ei, v14_eq_mix, sc_eq_score]
  show _ = Cert.Spec.pixel (px x0 b n) (cwf x1) g d
  unfold Cert.Spec.pixel
  rw [e15]
  rfl

theorem ref_eq (x0 : (⟨S16x512x64x64, .f32⟩ : BufTy).Contents (Elt Ideal)) (x1 : (⟨S512x32, .f32⟩ : BufTy).Contents (Elt Ideal))
    (x2 : (⟨S1, .f32⟩ : BufTy).Contents (Elt Ideal)) :
    val_main_v20 (F := Ideal) x0 x1 x2 = Cert.Spec.G4 x0 x1 (x2 (ix1 (0 : Fin 1))) := by
  funext i
  have hk := rowMajor_v16 i
  -- the scalar, broadcast to every entry
  have eg : val_main_v18 (F := Ideal) x2 i = x2 (ix1 (0 : Fin 1)) := by
    rw [val_main_v18_apply, val_main_v17_apply]
    exact congrArg x2 (funext fun a => Fin.ext (by match a with | ⟨0, _⟩ => rfl))
  -- the input at `i` is its (batch, channel, position) layout at the matching index: cast there and back
  have ex0 : x0 i = val_main_v0 (F := Ideal) x0 (idx_main_v16 i) := by
    have hh := shapeCast_shapeCast x0 shapeCasts_S16x512x64x64_S16x512x4096 shapeCasts_S16x512x4096_S16x512x64x64
    refine (congrFun hh i).symm.trans ?_
    exact shapeCast_apply (val_main_v0 (F := Ideal) x0) shapeCasts_S16x512x4096_S16x512x64x64 i (idx_main_v16 i) hk
  -- the reference at `i`
  have el : val_main_v20 (F := Ideal) x0 x1 x2 i
      = x0 i + x2 (ix1 (0 : Fin 1)) * val_main_v15 (F := Ideal) x0 x1 (idx_main_v16 i) := by
    rw [val_main_v20_apply, val_main_v19_apply, eg, val_main_v16_apply]
    rfl
  -- the specification at `i`
  have er : Cert.Spec.G4 x0 x1 (x2 (ix1 (0 : Fin 1))) i
      = Cert.Spec.G3 (val_main_v0 (F := Ideal) x0) x1 (x2 (ix1 (0 : Fin 1))) (idx_main_v16 i) := by
    unfold Cert.Spec.G4
    exact shapeCast_apply (Cert.Spec.G3 (shapeCast Cert.Spec.S3 x0 Cert.Spec.cast43) x1 (x2 (ix1 (0 : Fin 1))))
      Cert.Spec.cast34 i (idx_main_v16 i) hk
  refine el.trans ?_
  refine Eq.trans ?_ er.symm
  rw [ex0]
  exact ref3 x0 x1 _ _

end Cert.ReferenceIdeal.RefSpec

end
-- ==== Proof.lean ====
/-
  The kernel and its reference compute one function, and both programs run.

  Per pixel (a batch element and one of the 4096 positions of the flattened 64×64 image) with channel values `x d`
  (`d` below 512), codewords `cw d k` (`k` below 32) and a scalar `g`, both programs form the scores
  `s k = ∑ d, x d · cw d k`, the softmax weights `a k = exp (s k − m) / ∑ k', exp (s k' − m)` with the guard
  `m = max(−∞, max_k s k)`, and return `x d + g · ∑ k, cw d k · a k` (`Cert.Spec.pixel`; over the whole array `Cert.Spec.G4`).

  The kernel's program reaches it block by block: it reshapes the image to (batch, channel, position), hands each of 64
  grid points a block holding all channels of 1024 positions of one batch element, and reshapes the output back
  (`Cert.KernelIdeal.Arr.run`: what a point stores is a block of the whole-array function, the blocks tile the array).
  The reference reaches it on whole arrays, through a transpose, two contractions, a guarded softmax over the last axis
  and a transpose back (`Cert.ReferenceIdeal.RefSpec.ref_eq`, over the reference's run read one operation at a time).
  On the extended reals the two differ only in the layout of the arrays, in the order of the two factors of the second
  contraction (products commute) and in changes of float format, which are the identity; no finiteness of the inputs is used.

  The three frames are the programs' runs with the results dropped; the ideal pass rewrote nothing, so the kernel's
  idealization is its own text and that conjunct is trivial.
-/
import proofs.«166523_j50646254355197_1_alg».proof.Defs
import proofs.«166523_j50646254355197_1_alg».proof.Proof.Gen.Kernel
import proofs.«166523_j50646254355197_1_alg».proof.Proof.Gen.Kernel.Frame
import proofs.«166523_j50646254355197_1_alg».proof.Proof.Gen.KernelIdeal
import proofs.«166523_j50646254355197_1_alg».proof.Proof.Gen.KernelIdeal.Frame
import proofs.«166523_j50646254355197_1_alg».proof.Proof.Gen.ReferenceIdeal
import proofs.«166523_j50646254355197_1_alg».proof.Proof.Gen.Pre_finite_inputs
import proofs.«166523_j50646254355197_1_alg».proof.Proof.Gen.ReferenceIdeal.Run
import proofs.«166523_j50646254355197_1_alg».proof.Proof.Gen.ReferenceIdeal.Read
import proofs.«166523_j50646254355197_1_alg».proof.Proof.KernelValue
import proofs.«166523_j50646254355197_1_alg».proof.Proof.RefSpec
import Idealize.ShloMosaic.Adequacy
import Idealize.ShloMosaic.Init

noncomputable section

namespace Cert.Proof

open Idealize.ShloMosaic Idealize.ShloMosaic.ValueIdx Idealize.SL.Sem

/-- The kernel's program, read at the bit patterns, runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with their results at `Cert.Spec.G4` of the arguments:
    the kernel's by its run read block by block, the reference's by its run read operation by operation. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq (F := Ideal) _ _ _).trans ?_
  refine (Cert.ReferenceIdeal.RefSpec.ref_eq _ _ _).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
